-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1200000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S10000x128 : Shape := ⟨2, ![10000, 128]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 124
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1300000, .i32⟩
  | .hbm, ⟨17, _⟩ => ⟨S1300000, .i1⟩
  | .hbm, ⟨18, _⟩ => ⟨S_, .i32⟩
  | .hbm, ⟨19, _⟩ => ⟨S1300000, .i32⟩
  | .hbm, ⟨20, _⟩ => ⟨S1300000, .i32⟩
  | .hbm, ⟨21, _⟩ => ⟨S1300000, .i32⟩
  | .hbm, ⟨22, _⟩ => ⟨S1300000x1, .i32⟩
  | .hbm, ⟨23, _⟩ => ⟨S_, .f32⟩
  | .hbm, ⟨24, _⟩ => ⟨S1300000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x64, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000, .f32⟩
  | .hbm, ⟨53, _⟩ => ⟨S1300000, .f32⟩
  | .hbm, ⟨54, _⟩ => ⟨S_, .i32⟩
  | .hbm, ⟨55, _⟩ => ⟨S1300000, .i32⟩
  | .hbm, ⟨56, _⟩ => ⟨S1300000, .i1⟩
  | .hbm, ⟨57, _⟩ => ⟨S_, .i32⟩
  | .hbm, ⟨58, _⟩ => ⟨S1300000, .i32⟩
  | .hbm, ⟨59, _⟩ => ⟨S1300000, .i32⟩
  | .hbm, ⟨60, _⟩ => ⟨S1300000, .i32⟩
  | .hbm, ⟨61, _⟩ => ⟨S1300000x1, .i32⟩
  | .hbm, ⟨62, _⟩ => ⟨S1300000x64, .f32⟩
  | .hbm, ⟨63, _⟩ => ⟨S1300000x1, .f32⟩
  | .hbm, ⟨64, _⟩ => ⟨S1300000x64, .f32⟩
  | .hbm, ⟨65, _⟩ => ⟨S1300000x64, .f32⟩
  | .hbm, ⟨66, _⟩ => ⟨S_, .f32⟩
  | .hbm, ⟨67, _⟩ => ⟨S100000x64, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S1300000, .i32⟩
  | .hbm, ⟨82, _⟩ => ⟨S1300000, .i1⟩
  | .hbm, ⟨83, _⟩ => ⟨S_, .i32⟩
  | .hbm, ⟨84, _⟩ => ⟨S1300000, .i32⟩
  | .hbm, ⟨85, _⟩ => ⟨S1300000, .i32⟩
  | .hbm, ⟨86, _⟩ => ⟨S1300000, .i32⟩
  | .hbm, ⟨87, _⟩ => ⟨S1300000x1, .i32⟩
  | .hbm, ⟨88, _⟩ => ⟨S1300000, .f32⟩
  | .hbm, ⟨89, _⟩ => ⟨S_, .i32⟩
  | .hbm, ⟨90, _⟩ => ⟨S1300000, .i32⟩
  | .hbm, ⟨91, _⟩ => ⟨S1300000, .i1⟩
  | .hbm, ⟨92, _⟩ => ⟨S_, .i32⟩
  | .hbm, ⟨93, _⟩ => ⟨S1300000, .i32⟩
  | .hbm, ⟨94, _⟩ => ⟨S1300000, .i32⟩
  | .hbm, ⟨95, _⟩ => ⟨S1300000, .i32⟩
  | .hbm, ⟨96, _⟩ => ⟨S1300000x1, .i32⟩
  | .hbm, ⟨97, _⟩ => ⟨S1300000, .f32⟩
  | .hbm, ⟨98, _⟩ => ⟨S1300000, .f32⟩
  | .hbm, ⟨99, _⟩ => ⟨S_, .i32⟩
  | .hbm, ⟨100, _⟩ => ⟨S1300000, .i32⟩
  | .hbm, ⟨101, _⟩ => ⟨S1300000, .i1⟩
  | .hbm, ⟨102, _⟩ => ⟨S_, .i32⟩
  | .hbm, ⟨103, _⟩ => ⟨S1300000, .i32⟩
  | .hbm, ⟨104, _⟩ => ⟨S1300000, .i32⟩
  | .hbm, ⟨105, _⟩ => ⟨S1300000, .i32⟩
  | .hbm, ⟨106, _⟩ => ⟨S1300000x1, .i32⟩
  | .hbm, ⟨107, _⟩ => ⟨S1300000x64, .f32⟩
  | .hbm, ⟨108, _⟩ => ⟨S1300000x1, .f32⟩
  | .hbm, ⟨109, _⟩ => ⟨S1300000x64, .f32⟩
  | .hbm, ⟨110, _⟩ => ⟨S1300000x64, .f32⟩
  | .hbm, ⟨111, _⟩ => ⟨S_, .f32⟩
  | .hbm, ⟨112, _⟩ => ⟨S100000x64, .f32⟩
  | .hbm, ⟨113, _⟩ => ⟨S_, .i32⟩
  | .hbm, ⟨114, _⟩ => ⟨S1300000, .i32⟩
  | .hbm, ⟨115, _⟩ => ⟨S1300000, .i1⟩
  | .hbm, ⟨116, _⟩ => ⟨S_, .i32⟩
  | .hbm, ⟨117, _⟩ => ⟨S1300000, .i32⟩
  | .hbm, ⟨118, _⟩ => ⟨S1300000, .i32⟩
  | .hbm, ⟨119, _⟩ => ⟨S1300000, .i32⟩
  | .hbm, ⟨120, _⟩ => ⟨S1300000x1, .i32⟩
  | .hbm, ⟨121, _⟩ => ⟨S100000x64, .f32⟩
  | .hbm, ⟨122, _⟩ => ⟨S1x64, .f32⟩
  | .hbm, ⟨123, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1300000x1_S1300000_n_0_0_1_wf : ScatterDims.WF S100000 S1300000x1 S1300000 [] [0] [0] 1
  dot_S10000x128_S128x64_S10000x64_1_0_0_1_n_n_wf : DotDims.WF S10000x128 S128x64 S10000x64 [1] [0] [0] [1] [] []
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1200000, .i32⟩
  | 2 => ⟨S128x64, .f32⟩
  | 3 => ⟨S64, .f32⟩
  | 4 => ⟨S64x64, .f32⟩
  | 5 => ⟨S64, .f32⟩
  | 6 => ⟨S100000, .i32⟩
  | 7 => ⟨S1x1200000, .i32⟩
  | 8 => ⟨S1200000, .i32⟩
  | 9 => ⟨S1300000, .i32⟩
  | 10 => ⟨S1x1200000, .i32⟩
  | 11 => ⟨S1200000, .i32⟩
  | 12 => ⟨S1300000, .i32⟩
  | 13 => ⟨S_, .f32⟩
  | 14 => ⟨S100000, .f32⟩
  | 15 => ⟨S_, .i32⟩
  | 16 => ⟨S1300000, .i32⟩
  | 17 => ⟨S1300000, .i1⟩
  | 18 => ⟨S_, .i32⟩
  | 19 => ⟨S1300000, .i32⟩
  | 20 => ⟨S1300000, .i32⟩
  | 21 => ⟨S1300000, .i32⟩
  | 22 => ⟨S1300000x1, .i32⟩
  | 23 => ⟨S_, .f32⟩
  | 24 => ⟨S1300000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1300000, .i32⟩
  | 36 => ⟨S1300000, .i1⟩
  | 37 => ⟨S_, .i32⟩
  | 38 => ⟨S1300000, .i32⟩
  | 39 => ⟨S1300000, .i32⟩
  | 40 => ⟨S1300000, .i32⟩
  | 41 => ⟨S1300000x1, .i32⟩
  | 42 => ⟨S1300000, .f32⟩
  | 43 => ⟨S_, .i32⟩
  | 44 => ⟨S1300000, .i32⟩
  | 45 => ⟨S1300000, .i1⟩
  | 46 => ⟨S_, .i32⟩
  | 47 => ⟨S1300000, .i32⟩
  | 48 => ⟨S1300000, .i32⟩
  | 49 => ⟨S1300000, .i32⟩
  | 50 => ⟨S1300000x1, .i32⟩
  | 51 => ⟨S1300000, .f32⟩
  | 52 => ⟨S1300000, .f32⟩
  | 53 => ⟨S100000x64, .f32⟩
  | 54 => ⟨S_, .i32⟩
  | 55 => ⟨S1300000, .i32⟩
  | 56 => ⟨S1300000, .i1⟩
  | 57 => ⟨S_, .i32⟩
  | 58 => ⟨S1300000, .i32⟩
  | 59 => ⟨S1300000, .i32⟩
  | 60 => ⟨S1300000, .i32⟩
  | 61 => ⟨S1300000x1, .i32⟩
  | 62 => ⟨S1300000x64, .f32⟩
  | 63 => ⟨S1300000x1, .f32⟩
  | 64 => ⟨S1300000x64, .f32⟩
  | 65 => ⟨S1300000x64, .f32⟩
  | 66 => ⟨S_, .f32⟩
  | 67 => ⟨S100000x64, .f32⟩
  | 68 => ⟨S_, .i32⟩
  | 69 => ⟨S1300000, .i32⟩
  | 70 => ⟨S1300000, .i1⟩
  | 71 => ⟨S_, .i32⟩
  | 72 => ⟨S1300000, .i32⟩
  | 73 => ⟨S1300000, .i32⟩
  | 74 => ⟨S1300000, .i32⟩
  | 75 => ⟨S1300000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1300000, .i32⟩
  | 85 => ⟨S1300000, .i1⟩
  | 86 => ⟨S_, .i32⟩
  | 87 => ⟨S1300000, .i32⟩
  | 88 => ⟨S1300000, .i32⟩
  | 89 => ⟨S1300000, .i32⟩
  | 90 => ⟨S1300000x1, .i32⟩
  | 91 => ⟨S1300000, .f32⟩
  | 92 => ⟨S_, .i32⟩
  | 93 => ⟨S1300000, .i32⟩
  | 94 => ⟨S1300000, .i1⟩
  | 95 => ⟨S_, .i32⟩
  | 96 => ⟨S1300000, .i32⟩
  | 97 => ⟨S1300000, .i32⟩
  | 98 => ⟨S1300000, .i32⟩
  | 99 => ⟨S1300000x1, .i32⟩
  | 100 => ⟨S1300000, .f32⟩
  | 101 => ⟨S1300000, .f32⟩
  | 102 => ⟨S100000x64, .f32⟩
  | 103 => ⟨S_, .i32⟩
  | 104 => ⟨S1300000, .i32⟩
  | 105 => ⟨S1300000, .i1⟩
  | 106 => ⟨S_, .i32⟩
  | 107 => ⟨S1300000, .i32⟩
  | 108 => ⟨S1300000, .i32⟩
  | 109 => ⟨S1300000, .i32⟩
  | 110 => ⟨S1300000x1, .i32⟩
  | 111 => ⟨S1300000x64, .f32⟩
  | 112 => ⟨S1300000x1, .f32⟩
  | 113 => ⟨S1300000x64, .f32⟩
  | 114 => ⟨S1300000x64, .f32⟩
  | 115 => ⟨S_, .f32⟩
  | 116 => ⟨S100000x64, .f32⟩
  | 117 => ⟨S_, .i32⟩
  | 118 => ⟨S1300000, .i32⟩
  | 119 => ⟨S1300000, .i1⟩
  | 120 => ⟨S_, .i32⟩
  | 121 => ⟨S1300000, .i32⟩
  | 122 => ⟨S1300000, .i32⟩
  | 123 => ⟨S1300000, .i32⟩
  | 124 => ⟨S1300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call2_cst : Ref sig .tc := ⟨.hbm, 129, rfl⟩
abbrev main_call2_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run, with its result array named.

  The program is eight segments: two stretches of host operations, the first product region, a stretch of host
  operations, the first add-and-clamp region, the second product region, a stretch of host operations, the second
  add-and-clamp region. The buffer contents at each boundary are a fold from the launch memory (a stretch applies its
  operations to the contents before it; a region leaves its output array at what its ten write-backs make of it and every
  other buffer as it was). Every weakly fair execution terminates with every unscoped buffer at the last boundary's
  contents; read at the result buffer and at the six argument buffers, that is the statement below: the result holds the
  last boundary's contents of its buffer, and the arguments are as launched.
-/
import proofs.«174194_j32607391711819_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last boundary's
    contents of its buffer and the six argument arrays as launched. -/
theorem run_result : θ_run defs (onTc (τ := τ) (main (F := F))) ⟨m, fun _ => 0, ρ⟩ (fun r => ∀ c : Dev nD,
      r.2.mem ((c.tc : Thread nD τ).loc main_v91) = W8 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v91 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.GraphConv.lean ====
/-
  Two graph-convolution layers as one function of the six argument arrays.

  The edge list e is a [2, 1200000] array of node numbers; with one self-loop per node it gives 1300000 (source, target)
  pairs. The degree of a node counts the pairs it is the target of; an edge's weight is the product of the inverse square
  roots of the degrees of its two ends (zero where the degree is not positive). One layer multiplies the node features by
  a weight matrix, sends each product row along every pair from its source to its target scaled by the pair's weight,
  sums what arrives at each node, adds a bias row and keeps the positive part. Negative node numbers are read as counted
  from the end. Everything is stated for any reading of the float operations: over the extended reals the sums and products
  are the exact ones.
-/
import proofs.«174194_j32607391711819_1_alg».proof.ReferenceIdeal
import proofs.«174194_j32607391711819_1_alg».proof.Proof.Gen.ReferenceIdeal

noncomputable section

namespace Cert.GraphConv

open Cert.ReferenceIdeal Cert.ReferenceIdeal.Gen Idealize.ShloMosaic

variable {F : FTy → Type} [FloatOps F]

/-- An array of the given shape and element type. -/
abbrev Arr (F : FTy → Type) (s : Shape) (e : EltTy) : Type := (⟨s, e⟩ : BufTy).Contents (Elt F)

/-- Row 0 of the edge list followed by 0, 1, …, 99999: the source of every pair. -/
def sources (e : Arr F S2x1200000 .i32) : Arr F S1300000 .i32 :=
  concatenate S1300000 0 [⟨S1200000, shapeCast _ (extractStridedSlice S1x1200000 ![0, 0] e slices_S2x1200000_S1x1200000_0_0) shapeCasts_S1x1200000_S1200000⟩, ⟨S100000, iotaInDim S100000 32 0⟩] concatenates_S1200000_S100000_S1300000_d0

/-- Row 1 of the edge list followed by 0, 1, …, 99999: the target of every pair. -/
def targets (e : Arr F S2x1200000 .i32) : Arr F S1300000 .i32 :=
  concatenate S1300000 0 [⟨S1200000, shapeCast _ (extractStridedSlice S1x1200000 ![1, 0] e slices_S2x1200000_S1x1200000_1_0) shapeCasts_S1x1200000_S1200000⟩, ⟨S100000, iotaInDim S100000 32 0⟩] concatenates_S1200000_S100000_S1300000_d0

/-- Node numbers as a column of indices, a negative number n read as n + 100000. -/
def column (v : Arr F S1300000 .i32) : Arr F S1300000x1 .i32 :=
  broadcastInDim S1300000x1 ![0] bcast_S1300000_S1300000x1_0 (select (cmpi .slt v (broadcastInDim S1300000 ![] bcast_S_S1300000 (constantI S_ 32 0#32))) (addi v (broadcastInDim S1300000 ![] bcast_S_S1300000 (constantI S_ 32 100000#32))) v)

/-- The number of pairs each node is the target of: ones summed into zeros at the targets. -/
def degree (t : Arr F S1300000 .i32) : Arr F S100000 .f32 :=
  Host.scatterAdd scatter_S100000_S1300000x1_S1300000_n_0_0_1 (broadcastInDim S100000 ![] bcast_S_S100000 (constant (F := F) S_ .f32 0x00000000#32)) (column (F := F) t) (broadcastInDim S1300000 ![] bcast_S_S1300000 (constant (F := F) S_ .f32 0x3F800000#32))

/-- The inverse square root of a positive degree, zero otherwise. -/
def invSqrtDegree (t : Arr F S1300000 .i32) : Arr F S100000 .f32 :=
  select (cmpf .ogt (degree t) (broadcastInDim S100000 ![] bcast_S_S100000 (constant (F := F) S_ .f32 0x00000000#32))) (Host.rsqrt (degree (F := F) t)) (broadcastInDim S100000 ![] bcast_S_S100000 (id (constant (F := F) S_ .f32 0x00000000#32)))

/-- A pair's weight: the normaliser at its source times the normaliser at its target. -/
def pairWeight (s t : Arr F S1300000 .i32) (d : Arr F S100000 .f32) : Arr F S1300000 .f32 :=
  mulf (Host.gather gather_S100000_S1300000x1_S1300000_n_0_n_n_0_1_1 d (column (F := F) s)) (Host.gather gather_S100000_S1300000x1_S1300000_n_0_n_n_0_1_1 d (column (F := F) t))

/-- Rows of hw gathered at the sources, each scaled by its pair's weight, summed into zeros at the targets. -/
def aggregateWith (s t : Arr F S1300000 .i32) (d : Arr F S100000 .f32) (hw : Arr F S100000x64 .f32) : Arr F S100000x64 .f32 :=
  Host.scatterAdd scatter_S100000x64_S1300000x1_S1300000x64_1_0_0_1 (broadcastInDim S100000x64 ![] bcast_S_S100000x64 (constant (F := F) S_ .f32 0x00000000#32)) (column (F := F) t) (mulf (Host.gather gather_S100000x64_S1300000x1_S1300000x64_1_0_n_n_0_1_164 hw (column (F := F) s)) (broadcastInDim S1300000x64 ![0, 1] bcast_S1300000x1_S1300000x64_0_1 (broadcastInDim S1300000x1 ![0] bcast_S1300000_S1300000x1_0 (pairWeight (F := F) s t d))))

/-- The aggregation over the graph the edge list gives. -/
def aggregate (e : Arr F S2x1200000 .i32) (hw : Arr F S100000x64 .f32) : Arr F S100000x64 .f32 :=
  aggregateWith (F := F) (sources (F := F) e) (targets (F := F) e) (invSqrtDegree (F := F) (targets (F := F) e)) hw

/-- A [1, 64] row added to every row, then the maximum with zero. -/
def shiftClampRow (h : Arr F S100000x64 .f32) (b : Arr F S1x64 .f32) : Arr F S100000x64 .f32 :=
  maximumf (addf h (broadcastInDim S100000x64 ![0, 1] bcast_S1x64_S100000x64_0_1 b)) (broadcastInDim S100000x64 ![] bcast_S_S100000x64 (constant (F := F) S_ .f32 0x00000000#32))

/-- A bias vector added to every row, then the maximum with zero. -/
def shiftClamp (h : Arr F S100000x64 .f32) (b : Arr F S64 .f32) : Arr F S100000x64 .f32 :=
  shiftClampRow h (broadcastInDim S1x64 ![1] bcast_S64_S1x64_1 b)

/-- The two layers. -/
def twoLayers (x : Arr F S100000x128 .f32) (e : Arr F S2x1200000 .i32) (W1 : Arr F S128x64 .f32) (b1 : Arr F S64 .f32)
    (W2 : Arr F S64x64 .f32) (b2 : Arr F S64 .f32) : Arr F S100000x64 .f32 :=
  shiftClamp (aggregate e (Host.dotGeneral dot_S100000x64_S64x64_S100000x64_1_0_0_1_n_n none
    (shiftClamp (aggregate e (Host.dotGeneral dot_S100000x128_S128x64_S100000x64_1_0_0_1_n_n none x W1)) b1) W2)) b2

end Cert.GraphConv

end
-- ==== Proof.StretchFirst.lean ====
/-
  The host operations before the first product region, from any contents W of the buffers.

  They build, from the edge list alone, the 1300000 sources, the 1300000 targets and each node's normaliser (the inverse
  square root of its degree, zero for a node no pair targets), and write none of the argument arrays.
-/
import proofs.«174194_j32607391711819_1_alg».proof.Proof.Gen.KernelIdeal.Launch
import proofs.«174194_j32607391711819_1_alg».proof.Proof.GraphConv
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo
open Cert.GraphConv (sources targets degree invSqrtDegree aggregateWith)

variable {F : FTy → Type} [FloatOps F] (W : Valuation τ sig (Elt F))

/-- Spell a stretch as the literal list of its operations. -/
local macro "spell_stretch" : tactic =>
  `(tactic| simp only [hostOps0, hostOps0_1, hostOps1, hostOps3, List.flatten_cons, List.flatten_nil, List.append_nil,
      List.cons_append, List.nil_append])

/-- The sources: row 0 of the edge list followed by 0 … 99999. -/
theorem first_sources : after hostOps0_1 (after hostOps0 W) (Proc.devRef .tc main_v3) = sources (F := F) (W (Proc.devRef .tc main_arg1)) := by
  spell_stretch; after_results_simp; rfl

/-- The targets: row 1 of the edge list followed by 0 … 99999. -/
theorem first_targets : after hostOps0_1 (after hostOps0 W) (Proc.devRef .tc main_v6) = targets (F := F) (W (Proc.devRef .tc main_arg1)) := by
  spell_stretch; after_results_simp; rfl

/-- The normaliser: the inverse square root of the degree where it is positive, zero elsewhere. -/
theorem first_normaliser :
    after hostOps0_1 (after hostOps0 W) (Proc.devRef .tc main_v19) = invSqrtDegree (F := F) (targets (F := F) (W (Proc.devRef .tc main_arg1))) := by
  spell_stretch; after_results_simp; rfl

/-- An argument array is not written. -/
theorem first_keeps_arg0 : after hostOps0_1 (after hostOps0 W) (Proc.devRef .tc main_arg0) = W (Proc.devRef .tc main_arg0) := by
  spell_stretch; after_results_simp

/-- An argument array is not written. -/
theorem first_keeps_arg2 : after hostOps0_1 (after hostOps0 W) (Proc.devRef .tc main_arg2) = W (Proc.devRef .tc main_arg2) := by
  spell_stretch; after_results_simp

/-- An argument array is not written. -/
theorem first_keeps_arg3 : after hostOps0_1 (after hostOps0 W) (Proc.devRef .tc main_arg3) = W (Proc.devRef .tc main_arg3) := by
  spell_stretch; after_results_simp

/-- An argument array is not written. -/
theorem first_keeps_arg4 : after hostOps0_1 (after hostOps0 W) (Proc.devRef .tc main_arg4) = W (Proc.devRef .tc main_arg4) := by
  spell_stretch; after_results_simp

/-- An argument array is not written. -/
theorem first_keeps_arg5 : after hostOps0_1 (after hostOps0 W) (Proc.devRef .tc main_arg5) = W (Proc.devRef .tc main_arg5) := by
  spell_stretch; after_results_simp

end Cert.KernelIdeal.Stretch

end
-- ==== Proof.StretchMiddle.lean ====
/-
  The host operations between the first product region and the first add-and-clamp region, from any contents W.

  They gather the product's rows at the sources, scale each by its pair's weight (recomputed from the normaliser), sum them
  into zeros at the targets, and lay the first bias out as a [1, 64] row; they write neither the node lists, nor the
  normaliser, nor an argument.
-/
import proofs.«174194_j32607391711819_1_alg».proof.Proof.Gen.KernelIdeal.Launch
import proofs.«174194_j32607391711819_1_alg».proof.Proof.GraphConv
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo
open Cert.GraphConv (sources targets degree invSqrtDegree aggregateWith)

variable {F : FTy → Type} [FloatOps F] (W : Valuation τ sig (Elt F))

/-- Spell a stretch as the literal list of its operations. -/
local macro "spell_stretch" : tactic =>
  `(tactic| simp only [hostOps0, hostOps0_1, hostOps1, hostOps3, List.flatten_cons, List.flatten_nil, List.append_nil,
      List.cons_append, List.nil_append])

/-- The aggregated rows of what the buffer of the first product holds. -/
theorem middle_aggregate :
    after hostOps1 W (Proc.devRef .tc main_v53)
      = aggregateWith (F := F) (W (Proc.devRef .tc main_v3)) (W (Proc.devRef .tc main_v6)) (W (Proc.devRef .tc main_v19))
          (W (Proc.devRef .tc main_v20)) := by
  spell_stretch; after_results_simp; rfl

/-- The first bias as a row. -/
theorem middle_row :
    after hostOps1 W (Proc.devRef .tc main_v54) = shapeCast S1x64 (W (Proc.devRef .tc main_arg3)) shapeCasts_S64_S1x64 := by
  spell_stretch; after_results_simp; rfl

/-- Not written by this stretch. -/
theorem middle_keeps_v3 : after hostOps1 W (Proc.devRef .tc main_v3) = W (Proc.devRef .tc main_v3) := by
  spell_stretch; after_results_simp

/-- Not written by this stretch. -/
theorem middle_keeps_v6 : after hostOps1 W (Proc.devRef .tc main_v6) = W (Proc.devRef .tc main_v6) := by
  spell_stretch; after_results_simp

/-- Not written by this stretch. -/
theorem middle_keeps_v19 : after hostOps1 W (Proc.devRef .tc main_v19) = W (Proc.devRef .tc main_v19) := by
  spell_stretch; after_results_simp

/-- Not written by this stretch. -/
theorem middle_keeps_arg4 : after hostOps1 W (Proc.devRef .tc main_arg4) = W (Proc.devRef .tc main_arg4) := by
  spell_stretch; after_results_simp

/-- Not written by this stretch. -/
theorem middle_keeps_arg5 : after hostOps1 W (Proc.devRef .tc main_arg5) = W (Proc.devRef .tc main_arg5) := by
  spell_stretch; after_results_simp

end Cert.KernelIdeal.Stretch

end
-- ==== Proof.StretchLast.lean ====
/-
  The host operations between the second product region and the second add-and-clamp region, from any contents W: the same
  aggregation, of the second product, and the second bias laid out as a [1, 64] row.
-/
import proofs.«174194_j32607391711819_1_alg».proof.Proof.Gen.KernelIdeal.Launch
import proofs.«174194_j32607391711819_1_alg».proof.Proof.GraphConv
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo
open Cert.GraphConv (sources targets degree invSqrtDegree aggregateWith)

variable {F : FTy → Type} [FloatOps F] (W : Valuation τ sig (Elt F))

/-- Spell a stretch as the literal list of its operations. -/
local macro "spell_stretch" : tactic =>
  `(tactic| simp only [hostOps0, hostOps0_1, hostOps1, hostOps3, List.flatten_cons, List.flatten_nil, List.append_nil,
      List.cons_append, List.nil_append])

/-- The aggregated rows of what the buffer of the second product holds. -/
theorem last_aggregate :
    after hostOps3 W (Proc.devRef .tc main_v89)
      = aggregateWith (F := F) (W (Proc.devRef .tc main_v3)) (W (Proc.devRef .tc main_v6)) (W (Proc.devRef .tc main_v19))
          (W (Proc.devRef .tc main_v56)) := by
  spell_stretch; after_results_simp; rfl

/-- The second bias as a row. -/
theorem last_row :
    after hostOps3 W (Proc.devRef .tc main_v90) = shapeCast S1x64 (W (Proc.devRef .tc main_arg5)) shapeCasts_S64_S1x64 := by
  spell_stretch; after_results_simp; rfl

end Cert.KernelIdeal.Stretch

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«174194_j32607391711819_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.ProductRows0.lean ====
/-
  The rows of a matrix product, written ten thousand at a time.

  The grid has ten points; point t multiplies rows 10000·t … 10000·t + 9999 of the left operand by the whole right operand,
  accumulating into zero, and writes the 10000 × 64 result to the same rows of the output. Over the extended reals a change of
  float format is the identity, so each written block is the restriction of the one whole product of the two arrays, and
  the ten blocks cover the output: after the region the output array is the whole product.
-/
import proofs.«174194_j32607391711819_1_alg».proof.Proof.Gen.KernelIdeal.Frame
import proofs.«174194_j32607391711819_1_alg».proof.ReferenceIdeal
import Idealize.ShloMosaic.Lib.Pipeline.Value
import Idealize.ShloMosaic.Lib.ValueIdx
import Idealize.ShloMosaic.Lib.ValueLayout
import Idealize.ShloMosaic.PureOps.Ideal.Laws
import proofs.«174194_j32607391711819_1_alg».proof.Proof.LibRowBlockProduct

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as a constant function. -/
theorem zero_offsets0 : (![0, 0] : Fin 2 → Nat) = fun _ => 0 := funext fun a => by fin_cases a <;> rfl

/-- The printed dimension record of the body's product is the plain 10000 × 128 by 128 × 64 one. -/
theorem dot_plain0 : dot_S10000x128_S128x64_S10000x64_1_0_0_1_n_n = DotDims.plain 10000 128 64 := rfl

/-- The body's payload on a block of rows: when the left block `x0` is rows `off …` of `X` and the right block `x1` is all of
    `W` (the three index maps known only by their coordinates), entry `j` of the payload is the entry of the whole product
    `X · W` that the result block puts `j` at. A change of float format is the identity over the extended reals. -/
theorem payload_rows0 (x0 : Vec Ideal S10000x128 .f32) (x1 : Vec Ideal S128x64 .f32)
    (X : FVec Ideal S100000x128 .f32) (W : FVec Ideal S128x64 .f32)
    (ex : S10000x128.Idx → S100000x128.Idx) (ew : S128x64.Idx → S128x64.Idx) (eo : S10000x64.Idx → S100000x64.Idx) (off : Nat)
    (hx : ∀ y, x0 y = X (ex y)) (hw : ∀ y, x1 y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S10000x64.Idx) :
    k0_pay1 x0 x1 j
      = Host.dotGeneral (F := Ideal) (φ₁ := .f32) (φ₂ := .f32) (DotDims.plain 100000 128 64) none X W (eo j) := by
  unfold k0_pay1
  rw [dot_plain0]
  exact Cert.Lib.plain_product_row_block (φ₁ := .f32) (φ₂ := .f32) none x0 x1 X W ex ew eo off hx hw hex0 hex1 hew0 hew1 heo0 heo1 j

/-- The printed index maps, decided over the ten points: the left and the result windows are at block row `t`, block column 0;
    the right window stays at block (0, 0). -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every block row below ten is some point's. -/
theorem idx_onto0 : ∀ q : Fin 10, ∃ t : Fin cfg0.N, win0_2.index t (0 : Fin 2) = q.val ∧ win0_2.index t (1 : Fin 2) = 0 :=
  (by decide +kernel : ∀ q : Fin 10, ∃ t : Fin grid0.N, win0_2.index t (0 : Fin 2) = q.val ∧ win0_2.index t (1 : Fin 2) = 0)

/-- What point `t` writes back is block `t` of the whole product of the two input arrays. -/
theorem flushed_rows0 (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 100000 128 64) none (V c main_arg0) (V c main_arg2)) := by
  show (cfg0.win 2).cut (grid0.coords t) ((dat0 (F := Ideal) V c).after 2 t) = _
  rw [after0_2]
  unfold out0_2
  rw [View.canon_unit_zero zero_offsets0]
  simp only [View.ld_unit_zero (S := S10000x128) zero_offsets0, View.ld_unit_zero (S := S128x64) zero_offsets0]
  obtain ⟨e0, e1, e2, e3, e4, e5⟩ := idx_facts0 t
  funext j
  show k0_pay1 (iblk0 V c 0 t) (iblk0 V c 1 t) j
    = Host.dotGeneral (F := Ideal) (φ₁ := .f32) (φ₂ := .f32) (DotDims.plain 100000 128 64) none (V c main_arg0) (V c main_arg2)
        (((cfg0.win 2).blk t).view.emb j)
  refine payload_rows0 (iblk0 V c 0 t) (iblk0 V c 1 t) (V c main_arg0) (V c main_arg2)
    (((cfg0.win 0).blk t).view.emb) (((cfg0.win 1).blk t).view.emb) (((cfg0.win 2).blk t).view.emb) (10000 * t.val)
    (fun y => rfl) (fun y => rfl) ?_ ?_ ?_ ?_ ?_ ?_ j
  · intro y
    show win0_0.index t (0 : Fin 2) * 10000 + 1 * (y 0).val = 10000 * t.val + (y 0).val
    omega
  · intro y
    show win0_0.index t (1 : Fin 2) * 128 + 1 * (y 1).val = (y 1).val
    omega
  · intro y
    show win0_1.index t (0 : Fin 2) * 128 + 1 * (y 0).val = (y 0).val
    omega
  · intro y
    show win0_1.index t (1 : Fin 2) * 64 + 1 * (y 1).val = (y 1).val
    omega
  · intro y
    show win0_2.index t (0 : Fin 2) * 10000 + 1 * (y 0).val = 10000 * t.val + (y 0).val
    omega
  · intro y
    show win0_2.index t (1 : Fin 2) * 64 + 1 * (y 1).val = (y 1).val
    omega

/-- An index of the output array is in point `t`'s block iff each coordinate is in the block's range on its axis. -/
theorem mem_rows0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v20).slice (win0_2.rect t)).set ↔ _
  rw [View.set_slice_whole, Rect.mem_set_unit]
  exact Iff.rfl

/-- The ten blocks cover the output: row `r` is in the block of the point at block row `r / 10000`. -/
theorem cover_rows0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := idx_onto0 ⟨(i 0).val / 10000, by omega⟩
  have q0' : win0_2.index t (0 : Fin 2) = (i 0).val / 10000 := q0
  refine ⟨t, flush0_2 t, ?_⟩
  rw [mem_rows0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region, the output array is the whole 100000 × 128 by 128 × 64 product of the two input arrays as the region found
    them. -/
theorem product_rows0 (c : Dev nD) :
    (dat0 (F := Ideal) V c).arrAt 2 cfg0.N
      = Host.dotGeneral (F := Ideal) (φ₁ := .f32) (φ₂ := .f32) (DotDims.plain 100000 128 64) none (V c main_arg0) (V c main_arg2) :=
  (dat0 (F := Ideal) V c).arrAt_eq_of_cover 2 _ (fun t _ => flushed_rows0 V c t) cover_rows0

end Cert.KernelIdeal.RegionValue

end
-- ==== Proof.ProductRows2.lean ====
/-
  The rows of a matrix product, written ten thousand at a time.

  The grid has ten points; point t multiplies rows 10000·t … 10000·t + 9999 of the left operand by the whole right operand,
  accumulating into zero, and writes the 10000 × 64 result to the same rows of the output. Over the extended reals a change of
  float format is the identity, so each written block is the restriction of the one whole product of the two arrays, and
  the ten blocks cover the output: after the region the output array is the whole product.
-/
import proofs.«174194_j32607391711819_1_alg».proof.Proof.Gen.KernelIdeal.Frame
import proofs.«174194_j32607391711819_1_alg».proof.ReferenceIdeal
import Idealize.ShloMosaic.Lib.Pipeline.Value
import Idealize.ShloMosaic.Lib.ValueIdx
import Idealize.ShloMosaic.Lib.ValueLayout
import Idealize.ShloMosaic.PureOps.Ideal.Laws
import proofs.«174194_j32607391711819_1_alg».proof.Proof.LibRowBlockProduct

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as a constant function. -/
theorem zero_offsets2 : (![0, 0] : Fin 2 → Nat) = fun _ => 0 := funext fun a => by fin_cases a <;> rfl

/-- The printed dimension record of the body's product is the plain 10000 × 64 by 64 × 64 one. -/
theorem dot_plain2 : dot_S10000x64_S64x64_S10000x64_1_0_0_1_n_n = DotDims.plain 10000 64 64 := rfl

/-- The body's payload on a block of rows: when the left block `x0` is rows `off …` of `X` and the right block `x1` is all of
    `W` (the three index maps known only by their coordinates), entry `j` of the payload is the entry of the whole product
    `X · W` that the result block puts `j` at. The cast of the left block to its own shape changes nothing, and a change of
    float format is the identity over the extended reals. -/
theorem payload_rows2 (x0 : Vec Ideal S10000x64 .f32) (x1 : Vec Ideal S64x64 .f32)
    (X : FVec Ideal S100000x64 .f32) (W : FVec Ideal S64x64 .f32)
    (ex : S10000x64.Idx → S100000x64.Idx) (ew : S64x64.Idx → S64x64.Idx) (eo : S10000x64.Idx → S100000x64.Idx) (off : Nat)
    (hx : ∀ y, x0 y = X (ex y)) (hw : ∀ y, x1 y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S10000x64.Idx) :
    k2_pay1 x0 x1 j
      = Host.dotGeneral (F := Ideal) (φ₁ := .f32) (φ₂ := .f32) (DotDims.plain 100000 64 64) none X W (eo j) := by
  unfold k2_pay1
  rw [shapeCast_self, dot_plain2]
  exact Cert.Lib.plain_product_row_block (φ₁ := .f32) (φ₂ := .f32) none x0 x1 X W ex ew eo off hx hw hex0 hex1 hew0 hew1 heo0 heo1 j

/-- The printed index maps, decided over the ten points: the left and the result windows are at block row `t`, block column 0;
    the right window stays at block (0, 0). -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every block row below ten is some point's. -/
theorem idx_onto2 : ∀ q : Fin 10, ∃ t : Fin cfg2.N, win2_2.index t (0 : Fin 2) = q.val ∧ win2_2.index t (1 : Fin 2) = 0 :=
  (by decide +kernel : ∀ q : Fin 10, ∃ t : Fin grid2.N, win2_2.index t (0 : Fin 2) = q.val ∧ win2_2.index t (1 : Fin 2) = 0)

/-- What point `t` writes back is block `t` of the whole product of the two input arrays. -/
theorem flushed_rows2 (c : Dev nD) (t : Fin cfg2.N) :
    (dat2 (F := Ideal) V c).flushed 2 t = ((cfg2.win 2).blk t).view.read (Elt Ideal)
      (Host.dotGeneral (F := Ideal) (φ₁ := .f32) (φ₂ := .f32) (DotDims.plain 100000 64 64) none (V c main_v55) (V c main_arg4)) := by
  show (cfg2.win 2).cut (grid2.coords t) ((dat2 (F := Ideal) V c).after 2 t) = _
  rw [after2_2]
  unfold out2_2
  rw [View.canon_unit_zero zero_offsets2]
  simp only [View.ld_unit_zero (S := S10000x64) zero_offsets2, View.ld_unit_zero (S := S64x64) zero_offsets2]
  obtain ⟨e0, e1, e2, e3, e4, e5⟩ := idx_facts2 t
  funext j
  show k2_pay1 (iblk2 V c 0 t) (iblk2 V c 1 t) j
    = Host.dotGeneral (F := Ideal) (φ₁ := .f32) (φ₂ := .f32) (DotDims.plain 100000 64 64) none (V c main_v55) (V c main_arg4)
        (((cfg2.win 2).blk t).view.emb j)
  refine payload_rows2 (iblk2 V c 0 t) (iblk2 V c 1 t) (V c main_v55) (V c main_arg4)
    (((cfg2.win 0).blk t).view.emb) (((cfg2.win 1).blk t).view.emb) (((cfg2.win 2).blk t).view.emb) (10000 * t.val)
    (fun y => rfl) (fun y => rfl) ?_ ?_ ?_ ?_ ?_ ?_ j
  · intro y
    show win2_0.index t (0 : Fin 2) * 10000 + 1 * (y 0).val = 10000 * t.val + (y 0).val
    omega
  · intro y
    show win2_0.index t (1 : Fin 2) * 64 + 1 * (y 1).val = (y 1).val
    omega
  · intro y
    show win2_1.index t (0 : Fin 2) * 64 + 1 * (y 0).val = (y 0).val
    omega
  · intro y
    show win2_1.index t (1 : Fin 2) * 64 + 1 * (y 1).val = (y 1).val
    omega
  · intro y
    show win2_2.index t (0 : Fin 2) * 10000 + 1 * (y 0).val = 10000 * t.val + (y 0).val
    omega
  · intro y
    show win2_2.index t (1 : Fin 2) * 64 + 1 * (y 1).val = (y 1).val
    omega

/-- An index of the output array is in point `t`'s block iff each coordinate is in the block's range on its axis. -/
theorem mem_rows2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v56).slice (win2_2.rect t)).set ↔ _
  rw [View.set_slice_whole, Rect.mem_set_unit]
  exact Iff.rfl

/-- The ten blocks cover the output: row `r` is in the block of the point at block row `r / 10000`. -/
theorem cover_rows2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := idx_onto2 ⟨(i 0).val / 10000, by omega⟩
  have q0' : win2_2.index t (0 : Fin 2) = (i 0).val / 10000 := q0
  refine ⟨t, flush2_2 t, ?_⟩
  rw [mem_rows2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region, the output array is the whole 100000 × 64 by 64 × 64 product of the two input arrays as the region found
    them. -/
theorem product_rows2 (c : Dev nD) :
    (dat2 (F := Ideal) V c).arrAt 2 cfg2.N
      = Host.dotGeneral (F := Ideal) (φ₁ := .f32) (φ₂ := .f32) (DotDims.plain 100000 64 64) none (V c main_v55) (V c main_arg4) :=
  (dat2 (F := Ideal) V c).arrAt_eq_of_cover 2 _ (fun t _ => flushed_rows2 V c t) cover_rows2

end Cert.KernelIdeal.RegionValue

end
-- ==== Proof.ShiftClamp1.lean ====
/-
  A row vector added to every row, then the positive part, written ten thousand rows at a time.

  The grid has ten points; point t reads rows 10000·t … 10000·t + 9999 of the [100000, 64] input and the whole [1, 64] row,
  adds the row to each of its rows, takes the maximum with zero, and writes the result to the same rows of the output.
  Entry (r, j) of every written block is max (h (r, j) + b (0, j), 0) of the whole arrays, and the ten blocks cover the
  output: after the region the output array is that pointwise function of the two input arrays.
-/
import proofs.«174194_j32607391711819_1_alg».proof.Proof.Gen.KernelIdeal.Frame
import proofs.«174194_j32607391711819_1_alg».proof.ReferenceIdeal
import proofs.«174194_j32607391711819_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-buffer access, as the constant function. -/
theorem zero_offsets1 : (![0, 0] : Fin 2 → Nat) = fun _ => 0 := funext fun a => by fin_cases a <;> rfl

/-- Entry (R, j) of the whole-array function: the input's entry plus the row's entry in column j, or zero if that is larger. -/
theorem whole_entry1 (H : FVec Ideal S100000x64 .f32) (B : FVec Ideal S1x64 .f32) (R : Fin 100000) (j : Fin 64) :
    maximumf (F := Ideal) (addf H (broadcastInDim S100000x64 ![0, 1] Cert.ReferenceIdeal.Gen.bcast_S1x64_S100000x64_0_1 B))
        (broadcastInDim S100000x64 ![] bcast_S_S100000x64 (constant (F := Ideal) S_ .f32 0x00000000#32)) (ix2 R j)
      = max (H (ix2 R j) + B (ix2 (0 : Fin 1) j)) (Ideal.ofBits .f32 0x00000000#32) := by
  rw [maximumf_apply, addf_apply,
    broadcastInDim_apply ![0, 1] _ B (ix2 R j) (ix2 (0 : Fin 1) j) (fun a => by
      match a with
      | ⟨0, _⟩ => rfl
      | ⟨1, _⟩ => rfl),
    broadcastInDim_apply ![] _ _ (ix2 R j) ix0 (fun a => a.elim0)]
  rfl

/-- Entry (r, j) of the block a point computes from its [10000, 64] block and the [1, 64] row: the same expression of
    the block's entry (r, j) and the row's entry (0, j). -/
theorem block_entry1 (x0 : Vec Ideal S10000x64 .f32) (x1 : Vec Ideal S1x64 .f32) (r : Fin 10000) (j : Fin 64) :
    k1_pay1 (F := Ideal) x0 x1 (ix2 r j)
      = max (x0 (ix2 r j) + x1 (ix2 (0 : Fin 1) j)) (Ideal.ofBits .f32 0x00000000#32) := by
  unfold k1_pay1
  rw [maximumf_apply, addf_apply, shapeCast_self, shapeCast_self, broadcastTo_1b_ab_apply, broadcast_apply]
  rfl

/-- A computed block's entry at y is the whole-array function's entry at i, when the input block's entry at y is the
    input array's at i, the row block is the row array, and i and y name the same column. -/
theorem point_entry1 (x0 : Vec Ideal S10000x64 .f32) (x1 : Vec Ideal S1x64 .f32)
    (H : FVec Ideal S100000x64 .f32) (B : FVec Ideal S1x64 .f32) (y : S10000x64.Idx) (i : S100000x64.Idx)
    (h0 : x0 y = H i) (h1 : ∀ j : Fin 64, x1 (ix2 (0 : Fin 1) j) = B (ix2 (0 : Fin 1) j)) (hcol : (i 1).val = (y 1).val) :
    k1_pay1 (F := Ideal) x0 x1 y
      = maximumf (F := Ideal) (addf H (broadcastInDim S100000x64 ![0, 1] Cert.ReferenceIdeal.Gen.bcast_S1x64_S100000x64_0_1 B))
          (broadcastInDim S100000x64 ![] bcast_S_S100000x64 (constant (F := Ideal) S_ .f32 0x00000000#32)) i := by
  obtain ⟨r, j, rfl⟩ : ∃ (r : Fin 10000) (j : Fin 64), y = ix2 r j := ⟨y 0, y 1, eq_ix2 y⟩
  obtain ⟨R, j', rfl⟩ : ∃ (R : Fin 100000) (j' : Fin 64), i = ix2 R j' := ⟨i 0, i 1, eq_ix2 i⟩
  obtain rfl : j' = j := Fin.ext hcol
  rw [block_entry1, whole_entry1, h0, h1]

/-- The block indices over the grid: the input's block moves with the output's, which is the point's number along the
    rows and zero along the columns; the row's block index is zero on both axes. -/
theorem block_indices1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks is some point's. -/
theorem block_onto1 : ∀ q : Fin 10, ∃ t : Fin cfg1.N, win1_2.index t = ![q.val, 0] :=
  (by decide +kernel : ∀ q : Fin 10, ∃ t : Fin grid1.N, win1_2.index t = ![q.val, 0])

/-- What point t writes back is its block of the whole-array function of the two input arrays as the region found them. -/
theorem written_block1 (c : Dev nD) (t : Fin cfg1.N) :
    (dat1 (F := Ideal) V c).flushed 2 t = ((cfg1.win 2).blk t).view.read (Elt Ideal)
      (maximumf (F := Ideal) (addf (V c main_v53)
          (broadcastInDim S100000x64 ![0, 1] Cert.ReferenceIdeal.Gen.bcast_S1x64_S100000x64_0_1 (V c main_v54)))
        (broadcastInDim S100000x64 ![] bcast_S_S100000x64 (constant (F := Ideal) S_ .f32 0x00000000#32))) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  obtain ⟨e0, e1, e2, e3, e4, e5⟩ := block_indices1 t
  funext y
  refine point_entry1 (iblk1 V c 0 t) (iblk1 V c 1 t) (V c main_v53) (V c main_v54) y (((cfg1.win 2).blk t).view.emb y) ?_ ?_ ?_
  · -- the input's block sits where the output's does
    show V c main_v53 (((cfg1.win 0).blk t).view.emb y) = V c main_v53 (((cfg1.win 2).blk t).view.emb y)
    refine congrArg (V c main_v53) (funext fun a => Fin.ext ?_)
    match a with
    | ⟨0, _⟩ => show win1_0.index t (0 : Fin 2) * 10000 + 1 * (y 0).val = win1_2.index t (0 : Fin 2) * 10000 + 1 * (y 0).val; rw [e0]
    | ⟨1, _⟩ => show win1_0.index t (1 : Fin 2) * 64 + 1 * (y 1).val = win1_2.index t (1 : Fin 2) * 64 + 1 * (y 1).val; rw [e1]
  · -- the row's block is the whole row
    intro j
    show V c main_v54 (((cfg1.win 1).blk t).view.emb (ix2 (0 : Fin 1) j)) = V c main_v54 (ix2 (0 : Fin 1) j)
    refine congrArg (V c main_v54) (funext fun a => Fin.ext ?_)
    match a with
    | ⟨0, _⟩ => show win1_1.index t (0 : Fin 2) * 1 + 1 * 0 = 0; rw [e2]
    | ⟨1, _⟩ => show win1_1.index t (1 : Fin 2) * 64 + 1 * j.val = j.val; rw [e3]; omega
  · -- the output's block starts at column zero
    show win1_2.index t (1 : Fin 2) * 64 + 1 * (y 1).val = (y 1).val
    rw [e5]; omega

/-- An index of the output array is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v55).slice (win1_2.rect t)).set ↔ _
  rw [View.set_slice_whole, Rect.mem_set_unit]
  exact Iff.rfl

/-- Row r of the output is in the block of the point whose row-block index is r / 10000: the ten blocks cover the array. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region, the output array is the maximum with zero of the input plus the row broadcast along the rows, of the
    two input arrays as the region found them. -/
theorem shift_clamp1 (c : Dev nD) :
    (dat1 (F := Ideal) V c).arrAt 2 cfg1.N
      = maximumf (F := Ideal) (addf (V c main_v53)
          (broadcastInDim S100000x64 ![0, 1] Cert.ReferenceIdeal.Gen.bcast_S1x64_S100000x64_0_1 (V c main_v54)))
        (broadcastInDim S100000x64 ![] bcast_S_S100000x64 (constant (F := Ideal) S_ .f32 0x00000000#32)) :=
  (dat1 (F := Ideal) V c).arrAt_eq_of_cover 2 _ (fun t _ => written_block1 V c t) covered1

end Cert.KernelIdeal.RegionValue

end
-- ==== Proof.ShiftClamp3.lean ====
/-
  A row vector added to every row, then the positive part, written ten thousand rows at a time.

  The grid has ten points; point t reads rows 10000·t … 10000·t + 9999 of the [100000, 64] input and the whole [1, 64] row,
  adds the row to each of its rows, takes the maximum with zero, and writes the result to the same rows of the output.
  Entry (r, j) of every written block is max (h (r, j) + b (0, j), 0) of the whole arrays, and the ten blocks cover the
  output: after the region the output array is that pointwise function of the two input arrays.
-/
import proofs.«174194_j32607391711819_1_alg».proof.Proof.Gen.KernelIdeal.Frame
import proofs.«174194_j32607391711819_1_alg».proof.ReferenceIdeal
import proofs.«174194_j32607391711819_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-buffer access, as the constant function. -/
theorem zero_offsets3 : (![0, 0] : Fin 2 → Nat) = fun _ => 0 := funext fun a => by fin_cases a <;> rfl

/-- Entry (R, j) of the whole-array function: the input's entry plus the row's entry in column j, or zero if that is larger. -/
theorem whole_entry3 (H : FVec Ideal S100000x64 .f32) (B : FVec Ideal S1x64 .f32) (R : Fin 100000) (j : Fin 64) :
    maximumf (F := Ideal) (addf H (broadcastInDim S100000x64 ![0, 1] Cert.ReferenceIdeal.Gen.bcast_S1x64_S100000x64_0_1 B))
        (broadcastInDim S100000x64 ![] bcast_S_S100000x64 (constant (F := Ideal) S_ .f32 0x00000000#32)) (ix2 R j)
      = max (H (ix2 R j) + B (ix2 (0 : Fin 1) j)) (Ideal.ofBits .f32 0x00000000#32) := by
  rw [maximumf_apply, addf_apply,
    broadcastInDim_apply ![0, 1] _ B (ix2 R j) (ix2 (0 : Fin 1) j) (fun a => by
      match a with
      | ⟨0, _⟩ => rfl
      | ⟨1, _⟩ => rfl),
    broadcastInDim_apply ![] _ _ (ix2 R j) ix0 (fun a => a.elim0)]
  rfl

/-- Entry (r, j) of the block a point computes from its [10000, 64] block and the [1, 64] row: the same expression of
    the block's entry (r, j) and the row's entry (0, j). -/
theorem block_entry3 (x0 : Vec Ideal S10000x64 .f32) (x1 : Vec Ideal S1x64 .f32) (r : Fin 10000) (j : Fin 64) :
    k3_pay1 (F := Ideal) x0 x1 (ix2 r j)
      = max (x0 (ix2 r j) + x1 (ix2 (0 : Fin 1) j)) (Ideal.ofBits .f32 0x00000000#32) := by
  unfold k3_pay1
  rw [maximumf_apply, addf_apply, shapeCast_self, shapeCast_self, broadcastTo_1b_ab_apply, broadcast_apply]
  rfl

/-- A computed block's entry at y is the whole-array function's entry at i, when the input block's entry at y is the
    input array's at i, the row block is the row array, and i and y name the same column. -/
theorem point_entry3 (x0 : Vec Ideal S10000x64 .f32) (x1 : Vec Ideal S1x64 .f32)
    (H : FVec Ideal S100000x64 .f32) (B : FVec Ideal S1x64 .f32) (y : S10000x64.Idx) (i : S100000x64.Idx)
    (h0 : x0 y = H i) (h1 : ∀ j : Fin 64, x1 (ix2 (0 : Fin 1) j) = B (ix2 (0 : Fin 1) j)) (hcol : (i 1).val = (y 1).val) :
    k3_pay1 (F := Ideal) x0 x1 y
      = maximumf (F := Ideal) (addf H (broadcastInDim S100000x64 ![0, 1] Cert.ReferenceIdeal.Gen.bcast_S1x64_S100000x64_0_1 B))
          (broadcastInDim S100000x64 ![] bcast_S_S100000x64 (constant (F := Ideal) S_ .f32 0x00000000#32)) i := by
  obtain ⟨r, j, rfl⟩ : ∃ (r : Fin 10000) (j : Fin 64), y = ix2 r j := ⟨y 0, y 1, eq_ix2 y⟩
  obtain ⟨R, j', rfl⟩ : ∃ (R : Fin 100000) (j' : Fin 64), i = ix2 R j' := ⟨i 0, i 1, eq_ix2 i⟩
  obtain rfl : j' = j := Fin.ext hcol
  rw [block_entry3, whole_entry3, h0, h1]

/-- The block indices over the grid: the input's block moves with the output's, which is the point's number along the
    rows and zero along the columns; the row's block index is zero on both axes. -/
theorem block_indices3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some point's. -/
theorem block_onto3 : ∀ q : Fin 10, ∃ t : Fin cfg3.N, win3_2.index t = ![q.val, 0] :=
  (by decide +kernel : ∀ q : Fin 10, ∃ t : Fin grid3.N, win3_2.index t = ![q.val, 0])

/-- What point t writes back is its block of the whole-array function of the two input arrays as the region found them. -/
theorem written_block3 (c : Dev nD) (t : Fin cfg3.N) :
    (dat3 (F := Ideal) V c).flushed 2 t = ((cfg3.win 2).blk t).view.read (Elt Ideal)
      (maximumf (F := Ideal) (addf (V c main_v89)
          (broadcastInDim S100000x64 ![0, 1] Cert.ReferenceIdeal.Gen.bcast_S1x64_S100000x64_0_1 (V c main_v90)))
        (broadcastInDim S100000x64 ![] bcast_S_S100000x64 (constant (F := Ideal) S_ .f32 0x00000000#32))) := by
  show (cfg3.win 2).cut (grid3.coords t) ((dat3 V c).after 2 t) = _
  rw [after3_2]
  unfold out3_2
  rw [View.canon_unit_zero zero_offsets3]
  simp only [View.ld_unit_zero (S := S10000x64) zero_offsets3, View.ld_unit_zero (S := S1x64) zero_offsets3]
  obtain ⟨e0, e1, e2, e3, e4, e5⟩ := block_indices3 t
  funext y
  refine point_entry3 (iblk3 V c 0 t) (iblk3 V c 1 t) (V c main_v89) (V c main_v90) y (((cfg3.win 2).blk t).view.emb y) ?_ ?_ ?_
  · -- the input's block sits where the output's does
    show V c main_v89 (((cfg3.win 0).blk t).view.emb y) = V c main_v89 (((cfg3.win 2).blk t).view.emb y)
    refine congrArg (V c main_v89) (funext fun a => Fin.ext ?_)
    match a with
    | ⟨0, _⟩ => show win3_0.index t (0 : Fin 2) * 10000 + 1 * (y 0).val = win3_2.index t (0 : Fin 2) * 10000 + 1 * (y 0).val; rw [e0]
    | ⟨1, _⟩ => show win3_0.index t (1 : Fin 2) * 64 + 1 * (y 1).val = win3_2.index t (1 : Fin 2) * 64 + 1 * (y 1).val; rw [e1]
  · -- the row's block is the whole row
    intro j
    show V c main_v90 (((cfg3.win 1).blk t).view.emb (ix2 (0 : Fin 1) j)) = V c main_v90 (ix2 (0 : Fin 1) j)
    refine congrArg (V c main_v90) (funext fun a => Fin.ext ?_)
    match a with
    | ⟨0, _⟩ => show win3_1.index t (0 : Fin 2) * 1 + 1 * 0 = 0; rw [e2]
    | ⟨1, _⟩ => show win3_1.index t (1 : Fin 2) * 64 + 1 * j.val = j.val; rw [e3]; omega
  · -- the output's block starts at column zero
    show win3_2.index t (1 : Fin 2) * 64 + 1 * (y 1).val = (y 1).val
    rw [e5]; omega

/-- An index of the output array is in point t's block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v91).slice (win3_2.rect t)).set ↔ _
  rw [View.set_slice_whole, Rect.mem_set_unit]
  exact Iff.rfl

/-- Row r of the output is in the block of the point whose row-block index is r / 10000: the ten blocks cover the array. -/
theorem covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region, the output array is the maximum with zero of the input plus the row broadcast along the rows, of the
    two input arrays as the region found them. -/
theorem shift_clamp3 (c : Dev nD) :
    (dat3 (F := Ideal) V c).arrAt 2 cfg3.N
      = maximumf (F := Ideal) (addf (V c main_v89)
          (broadcastInDim S100000x64 ![0, 1] Cert.ReferenceIdeal.Gen.bcast_S1x64_S100000x64_0_1 (V c main_v90)))
        (broadcastInDim S100000x64 ![] bcast_S_S100000x64 (constant (F := Ideal) S_ .f32 0x00000000#32)) :=
  (dat3 (F := Ideal) V c).arrAt_eq_of_cover 2 _ (fun t _ => written_block3 V c t) covered3

end Cert.KernelIdeal.RegionValue

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.Boundaries.lean ====
/-
  What the buffers hold at each boundary of the idealized kernel program's run.

  The run's boundaries are: the launch; after the host operations that build the graph's node lists and normaliser; after
  the first product region; after the host operations that aggregate its rows; after the first add-and-clamp region; after
  the second product region; after the second aggregation; after the second add-and-clamp region. A host stretch applies
  its operations to the contents before it; a region leaves its output array at the whole-array function of its inputs and
  every other buffer as it was. Followed buffer by buffer — the two node lists, the normaliser, the arguments still to be
  read, and each layer's intermediate arrays — the result buffer at the last boundary is the two graph-convolution layers
  of the six arguments as launched.
-/
import proofs.«174194_j32607391711819_1_alg».proof.Proof.Gen.KernelIdeal.Frame
import proofs.«174194_j32607391711819_1_alg».proof.Proof.GraphConv
import proofs.«174194_j32607391711819_1_alg».proof.Proof.StretchFirst
import proofs.«174194_j32607391711819_1_alg».proof.Proof.StretchMiddle
import proofs.«174194_j32607391711819_1_alg».proof.Proof.StretchLast
import proofs.«174194_j32607391711819_1_alg».proof.Proof.ProductRows0
import proofs.«174194_j32607391711819_1_alg».proof.Proof.ProductRows2
import proofs.«174194_j32607391711819_1_alg».proof.Proof.ShiftClamp1
import proofs.«174194_j32607391711819_1_alg».proof.Proof.ShiftClamp3
import proofs.«174194_j32607391711819_1_alg».proof.Proof.LibRowOfVector

set_option maxRecDepth 16384

noncomputable section

namespace Cert.KernelIdeal.Boundaries

open Cert.KernelIdeal Cert.KernelIdeal.Gen Idealize.ShloMosaic Idealize.ShloMosaic.TcCoe Idealize.SL.Sem
open Cert.GraphConv (sources targets invSqrtDegree aggregateWith shiftClamp)

variable (m : (ℓ : Loc nD τ sig) → Buf (Elt Ideal) ℓ) (ρ : Dev nD → PrngReg) (c : Dev nD)

/-! ## The intermediate arrays, as functions of the launch contents -/

/-- The features times the first weight matrix. -/
def firstProduct : Cert.GraphConv.Arr Ideal Cert.ReferenceIdeal.S100000x64 .f32 :=
  Host.dotGeneral (F := Ideal) (φ₁ := .f32) (φ₂ := .f32) (DotDims.plain 100000 128 64) none (m ((c.tc : Thread nD τ).loc main_arg0)) (m ((c.tc : Thread nD τ).loc main_arg2))
/-- Its rows aggregated over the graph. -/
def firstAggregate : Cert.GraphConv.Arr Ideal Cert.ReferenceIdeal.S100000x64 .f32 :=
  aggregateWith (F := Ideal) (sources (F := Ideal) (m ((c.tc : Thread nD τ).loc main_arg1))) (targets (F := Ideal) (m ((c.tc : Thread nD τ).loc main_arg1))) (invSqrtDegree (F := Ideal) (targets (F := Ideal) (m ((c.tc : Thread nD τ).loc main_arg1)))) (firstProduct m c)
/-- The first layer's output: the first bias added, the positive part kept. -/
def firstLayer : Cert.GraphConv.Arr Ideal Cert.ReferenceIdeal.S100000x64 .f32 :=
  shiftClamp (F := Ideal) (firstAggregate m c) (m ((c.tc : Thread nD τ).loc main_arg3))
/-- The first layer's output times the second weight matrix. -/
def secondProduct : Cert.GraphConv.Arr Ideal Cert.ReferenceIdeal.S100000x64 .f32 :=
  Host.dotGeneral (F := Ideal) (φ₁ := .f32) (φ₂ := .f32) (DotDims.plain 100000 64 64) none (firstLayer m c) (m ((c.tc : Thread nD τ).loc main_arg4))
/-- Its rows aggregated over the graph. -/
def secondAggregate : Cert.GraphConv.Arr Ideal Cert.ReferenceIdeal.S100000x64 .f32 :=
  aggregateWith (F := Ideal) (sources (F := Ideal) (m ((c.tc : Thread nD τ).loc main_arg1))) (targets (F := Ideal) (m ((c.tc : Thread nD τ).loc main_arg1))) (invSqrtDegree (F := Ideal) (targets (F := Ideal) (m ((c.tc : Thread nD τ).loc main_arg1)))) (secondProduct m c)
/-- The second layer's output. -/
def secondLayer : Cert.GraphConv.Arr Ideal Cert.ReferenceIdeal.S100000x64 .f32 :=
  shiftClamp (F := Ideal) (secondAggregate m c) (m ((c.tc : Thread nD τ).loc main_arg5))

/-! ## Before the first product region -/

theorem at2_v3 : W2 m ρ c (Proc.devRef .tc main_v3) = sources (F := Ideal) (m ((c.tc : Thread nD τ).loc main_arg1)) := Stretch.first_sources (W0 m ρ c)
theorem at2_v6 : W2 m ρ c (Proc.devRef .tc main_v6) = targets (F := Ideal) (m ((c.tc : Thread nD τ).loc main_arg1)) := Stretch.first_targets (W0 m ρ c)
theorem at2_v19 : W2 m ρ c (Proc.devRef .tc main_v19) = invSqrtDegree (F := Ideal) (targets (F := Ideal) (m ((c.tc : Thread nD τ).loc main_arg1))) := Stretch.first_normaliser (W0 m ρ c)
theorem at2_arg0 : W2 m ρ c (Proc.devRef .tc main_arg0) = (m ((c.tc : Thread nD τ).loc main_arg0)) := Stretch.first_keeps_arg0 (W0 m ρ c)
theorem at2_arg2 : W2 m ρ c (Proc.devRef .tc main_arg2) = (m ((c.tc : Thread nD τ).loc main_arg2)) := Stretch.first_keeps_arg2 (W0 m ρ c)
theorem at2_arg3 : W2 m ρ c (Proc.devRef .tc main_arg3) = (m ((c.tc : Thread nD τ).loc main_arg3)) := Stretch.first_keeps_arg3 (W0 m ρ c)
theorem at2_arg4 : W2 m ρ c (Proc.devRef .tc main_arg4) = (m ((c.tc : Thread nD τ).loc main_arg4)) := Stretch.first_keeps_arg4 (W0 m ρ c)
theorem at2_arg5 : W2 m ρ c (Proc.devRef .tc main_arg5) = (m ((c.tc : Thread nD τ).loc main_arg5)) := Stretch.first_keeps_arg5 (W0 m ρ c)

/-! ## After the first product region -/

/-- The first product region leaves the whole product of the features and the first weight matrix. -/
theorem at3_product : W3 m ρ c (Proc.devRef .tc main_v20) = firstProduct m c := by
  have h := (W3_arr m ρ c 2).trans (RegionValue.product_rows0 (V2 m ρ) c)
  rw [show V2 m ρ c main_arg0 = (m ((c.tc : Thread nD τ).loc main_arg0)) from at2_arg0 m ρ c,
      show V2 m ρ c main_arg2 = (m ((c.tc : Thread nD τ).loc main_arg2)) from at2_arg2 m ρ c] at h
  exact h
theorem at3_v3 : W3 m ρ c (Proc.devRef .tc main_v3) = sources (F := Ideal) (m ((c.tc : Thread nD τ).loc main_arg1)) :=
  (W3_of_ne m ρ c main_v3 (by decide)).trans (at2_v3 m ρ c)
theorem at3_v6 : W3 m ρ c (Proc.devRef .tc main_v6) = targets (F := Ideal) (m ((c.tc : Thread nD τ).loc main_arg1)) :=
  (W3_of_ne m ρ c main_v6 (by decide)).trans (at2_v6 m ρ c)
theorem at3_v19 : W3 m ρ c (Proc.devRef .tc main_v19) = invSqrtDegree (F := Ideal) (targets (F := Ideal) (m ((c.tc : Thread nD τ).loc main_arg1))) :=
  (W3_of_ne m ρ c main_v19 (by decide)).trans (at2_v19 m ρ c)
theorem at3_arg3 : W3 m ρ c (Proc.devRef .tc main_arg3) = (m ((c.tc : Thread nD τ).loc main_arg3)) :=
  (W3_of_ne m ρ c main_arg3 (by decide)).trans (at2_arg3 m ρ c)
theorem at3_arg4 : W3 m ρ c (Proc.devRef .tc main_arg4) = (m ((c.tc : Thread nD τ).loc main_arg4)) :=
  (W3_of_ne m ρ c main_arg4 (by decide)).trans (at2_arg4 m ρ c)
theorem at3_arg5 : W3 m ρ c (Proc.devRef .tc main_arg5) = (m ((c.tc : Thread nD τ).loc main_arg5)) :=
  (W3_of_ne m ρ c main_arg5 (by decide)).trans (at2_arg5 m ρ c)

/-! ## Before the first add-and-clamp region -/

/-- The rows of the first product aggregated over the graph. -/
theorem at4_aggregate : W4 m ρ c (Proc.devRef .tc main_v53) = firstAggregate m c := by
  have h := Stretch.middle_aggregate (W3 m ρ c)
  rw [at3_v3 m ρ c, at3_v6 m ρ c, at3_v19 m ρ c, at3_product m ρ c] at h
  exact h
/-- The first bias as a row: its reshape to [1, 64] is its broadcast along dimension 1. -/
theorem at4_row : W4 m ρ c (Proc.devRef .tc main_v54)
    = broadcastInDim S1x64 ![1] Cert.ReferenceIdeal.Gen.bcast_S64_S1x64_1 (m ((c.tc : Thread nD τ).loc main_arg3)) := by
  have h := Stretch.middle_row (W3 m ρ c)
  rw [at3_arg3 m ρ c] at h
  exact h.trans (Cert.Lib.shapeCast_row_eq_broadcastInDim _ _ _)
theorem at4_v3 : W4 m ρ c (Proc.devRef .tc main_v3) = sources (F := Ideal) (m ((c.tc : Thread nD τ).loc main_arg1)) :=
  (Stretch.middle_keeps_v3 (W3 m ρ c)).trans (at3_v3 m ρ c)
theorem at4_v6 : W4 m ρ c (Proc.devRef .tc main_v6) = targets (F := Ideal) (m ((c.tc : Thread nD τ).loc main_arg1)) :=
  (Stretch.middle_keeps_v6 (W3 m ρ c)).trans (at3_v6 m ρ c)
theorem at4_v19 : W4 m ρ c (Proc.devRef .tc main_v19) = invSqrtDegree (F := Ideal) (targets (F := Ideal) (m ((c.tc : Thread nD τ).loc main_arg1))) :=
  (Stretch.middle_keeps_v19 (W3 m ρ c)).trans (at3_v19 m ρ c)
theorem at4_arg4 : W4 m ρ c (Proc.devRef .tc main_arg4) = (m ((c.tc : Thread nD τ).loc main_arg4)) :=
  (Stretch.middle_keeps_arg4 (W3 m ρ c)).trans (at3_arg4 m ρ c)
theorem at4_arg5 : W4 m ρ c (Proc.devRef .tc main_arg5) = (m ((c.tc : Thread nD τ).loc main_arg5)) :=
  (Stretch.middle_keeps_arg5 (W3 m ρ c)).trans (at3_arg5 m ρ c)

/-! ## After the first add-and-clamp region -/

/-- The first layer's output. -/
theorem at5_layer : W5 m ρ c (Proc.devRef .tc main_v55) = firstLayer m c := by
  have h := (W5_arr m ρ c 2).trans (RegionValue.shift_clamp1 (V4 m ρ) c)
  rw [show V4 m ρ c main_v53 = firstAggregate m c from at4_aggregate m ρ c,
      show V4 m ρ c main_v54 = _ from at4_row m ρ c] at h
  exact h
theorem at5_v3 : W5 m ρ c (Proc.devRef .tc main_v3) = sources (F := Ideal) (m ((c.tc : Thread nD τ).loc main_arg1)) :=
  (W5_of_ne m ρ c main_v3 (by decide)).trans (at4_v3 m ρ c)
theorem at5_v6 : W5 m ρ c (Proc.devRef .tc main_v6) = targets (F := Ideal) (m ((c.tc : Thread nD τ).loc main_arg1)) :=
  (W5_of_ne m ρ c main_v6 (by decide)).trans (at4_v6 m ρ c)
theorem at5_v19 : W5 m ρ c (Proc.devRef .tc main_v19) = invSqrtDegree (F := Ideal) (targets (F := Ideal) (m ((c.tc : Thread nD τ).loc main_arg1))) :=
  (W5_of_ne m ρ c main_v19 (by decide)).trans (at4_v19 m ρ c)
theorem at5_arg4 : W5 m ρ c (Proc.devRef .tc main_arg4) = (m ((c.tc : Thread nD τ).loc main_arg4)) :=
  (W5_of_ne m ρ c main_arg4 (by decide)).trans (at4_arg4 m ρ c)
theorem at5_arg5 : W5 m ρ c (Proc.devRef .tc main_arg5) = (m ((c.tc : Thread nD τ).loc main_arg5)) :=
  (W5_of_ne m ρ c main_arg5 (by decide)).trans (at4_arg5 m ρ c)

/-! ## After the second product region -/

/-- The second product region leaves the whole product of the first layer's output and the second weight matrix. -/
theorem at6_product : W6 m ρ c (Proc.devRef .tc main_v56) = secondProduct m c := by
  have h := (W6_arr m ρ c 2).trans (RegionValue.product_rows2 (V5 m ρ) c)
  rw [show V5 m ρ c main_v55 = firstLayer m c from at5_layer m ρ c,
      show V5 m ρ c main_arg4 = (m ((c.tc : Thread nD τ).loc main_arg4)) from at5_arg4 m ρ c] at h
  exact h
theorem at6_v3 : W6 m ρ c (Proc.devRef .tc main_v3) = sources (F := Ideal) (m ((c.tc : Thread nD τ).loc main_arg1)) :=
  (W6_of_ne m ρ c main_v3 (by decide)).trans (at5_v3 m ρ c)
theorem at6_v6 : W6 m ρ c (Proc.devRef .tc main_v6) = targets (F := Ideal) (m ((c.tc : Thread nD τ).loc main_arg1)) :=
  (W6_of_ne m ρ c main_v6 (by decide)).trans (at5_v6 m ρ c)
theorem at6_v19 : W6 m ρ c (Proc.devRef .tc main_v19) = invSqrtDegree (F := Ideal) (targets (F := Ideal) (m ((c.tc : Thread nD τ).loc main_arg1))) :=
  (W6_of_ne m ρ c main_v19 (by decide)).trans (at5_v19 m ρ c)
theorem at6_arg5 : W6 m ρ c (Proc.devRef .tc main_arg5) = (m ((c.tc : Thread nD τ).loc main_arg5)) :=
  (W6_of_ne m ρ c main_arg5 (by decide)).trans (at5_arg5 m ρ c)

/-! ## Before the second add-and-clamp region -/

/-- The rows of the second product aggregated over the graph. -/
theorem at7_aggregate : W7 m ρ c (Proc.devRef .tc main_v89) = secondAggregate m c := by
  have h := Stretch.last_aggregate (W6 m ρ c)
  rw [at6_v3 m ρ c, at6_v6 m ρ c, at6_v19 m ρ c, at6_product m ρ c] at h
  exact h
/-- The second bias as a row. -/
theorem at7_row : W7 m ρ c (Proc.devRef .tc main_v90)
    = broadcastInDim S1x64 ![1] Cert.ReferenceIdeal.Gen.bcast_S64_S1x64_1 (m ((c.tc : Thread nD τ).loc main_arg5)) := by
  have h := Stretch.last_row (W6 m ρ c)
  rw [at6_arg5 m ρ c] at h
  exact h.trans (Cert.Lib.shapeCast_row_eq_broadcastInDim _ _ _)

/-! ## After the second add-and-clamp region: the result -/

/-- The result buffer holds the second layer's output. -/
theorem at8_layer : W8 m ρ c (Proc.devRef .tc main_v91) = secondLayer m c := by
  have h := (W8_arr m ρ c 2).trans (RegionValue.shift_clamp3 (V7 m ρ) c)
  rw [show V7 m ρ c main_v89 = secondAggregate m c from at7_aggregate m ρ c,
      show V7 m ρ c main_v90 = _ from at7_row m ρ c] at h
  exact h

/-- The result buffer at the last boundary holds the two layers of the six arguments' launch contents. -/
theorem result_value : W8 m ρ c (Proc.devRef .tc main_v91)
    = Cert.GraphConv.twoLayers (F := Ideal) (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) :=
  (at8_layer m ρ c).trans (by
    unfold secondLayer secondAggregate secondProduct firstLayer firstAggregate firstProduct
    rfl)

end Cert.KernelIdeal.Boundaries

end
-- ==== Proof.ReferenceValue.lean ====
/-
  The reference program's result is the two layers of the argument arrays: its run's composed term, with the repeated
  sub-terms named, is that function word for word.
-/
import proofs.«174194_j32607391711819_1_alg».proof.Proof.ReferenceRun
import proofs.«174194_j32607391711819_1_alg».proof.Proof.GraphConv

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The run's term for the result is the two layers of the launch contents of the six arguments. -/
theorem result_eq (m : (ℓ : Loc nD τ sig) → Buf (Elt F) ℓ) (c : Dev nD) :
    Cert.ReferenceIdeal.ValueP.res_main_v95 (F := F) m c
      = Cert.GraphConv.twoLayers (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v95
  rfl

end Cert.ReferenceIdeal.RefValue

end
-- ==== Proof.lean ====
/-
  The certificate of a two-layer graph convolution whose dense products and bias-and-clamp passes run as tiled kernels.

  Both programs compute, from node features x, an edge list e, two weight matrices and two bias vectors,

      layer (layer x W1 b1) W2 b2,   layer h W b = max (A (h · W) + b, 0),

  where A gathers the rows of its argument at each pair's source, scales them by the pair's weight (the product of the
  inverse square roots of the two ends' degrees) and sums them at the pair's target. The reference does everything with
  whole-array operations. The kernel program keeps the same whole-array operations for the graph part and runs each
  product h · W and each pass max (· + b, 0) as a kernel over ten blocks of 10000 rows. Over the extended reals a block
  of rows of a product is the product of the block (the rounding of the factors on the way in is the identity there), and
  the bias pass is pointwise, so each kernel region leaves the whole-array function of its inputs; with the shared
  aggregation carried along as one function, the two results are the same function of the six arguments. No law used
  needs the inputs finite, and the idealization rewrote nothing, so the only other claims are the three frames: the two
  kernel programs' from the generated frame certificates, the reference's from its run.
-/
import proofs.«174194_j32607391711819_1_alg».proof.Defs
import proofs.«174194_j32607391711819_1_alg».proof.Proof.Gen.Kernel
import proofs.«174194_j32607391711819_1_alg».proof.Proof.Gen.Kernel.Frame
import proofs.«174194_j32607391711819_1_alg».proof.Proof.Gen.KernelIdeal
import proofs.«174194_j32607391711819_1_alg».proof.Proof.Gen.KernelIdeal.Frame
import proofs.«174194_j32607391711819_1_alg».proof.Proof.Gen.ReferenceIdeal
import proofs.«174194_j32607391711819_1_alg».proof.Proof.Gen.Pre_finite_inputs
import proofs.«174194_j32607391711819_1_alg».proof.Proof.KernelRun
import proofs.«174194_j32607391711819_1_alg».proof.Proof.Boundaries
import proofs.«174194_j32607391711819_1_alg».proof.Proof.ReferenceRun
import proofs.«174194_j32607391711819_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals both programs end with the two layers of the (agreeing) arguments in their result arrays. -/
theorem algebraic : Cert.algebraic_KernelIdeal_ReferenceIdeal := by
  intro m ρ m' ρ' _ hagree
  refine ⟨fun c => Cert.GraphConv.twoLayers (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
